-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S80000x128 .f32) (main_arg1 : IVec S2x1280000 32) (main_arg2 : FVec F S128x64 .f32) (main_arg3 : FVec F S64 .f32) (main_arg4 : FVec F S64x32 .f32) (main_arg5 : FVec F S32 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S80000x64 : Shape := ⟨2, ![80000, 64]⟩
abbrev S8000x128 : Shape := ⟨2, ![8000, 128]⟩
abbrev S8000x64 : Shape := ⟨2, ![8000, 64]⟩
abbrev S1360000x64 : Shape := ⟨2, ![1360000, 64]⟩
abbrev S1x64 : Shape := ⟨2, ![1, 64]⟩
abbrev S80000x32 : Shape := ⟨2, ![80000, 32]⟩
abbrev S8000x32 : Shape := ⟨2, ![8000, 32]⟩
abbrev S1360000x32 : Shape := ⟨2, ![1360000, 32]⟩
abbrev S1x32 : Shape := ⟨2, ![1, 32]⟩

abbrev nBuf : Space → Nat
  | .hbm => 84
  | .vmem => 20
  | .smem => 0
  | _ => 0

abbrev bufTy : (tb : Table) → Fin (tcTables nBuf tb) → BufTy
  | .hbm, ⟨0, _⟩ => ⟨S80000x128, .f32⟩
  | .hbm, ⟨1, _⟩ => ⟨S2x1280000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S80000, .i32⟩
  | .hbm, ⟨11, _⟩ => ⟨S1360000, .i32⟩
  | .hbm, ⟨12, _⟩ => ⟨S1360000, .i32⟩
  | .hbm, ⟨13, _⟩ => ⟨S_, .f32⟩
  | .hbm, ⟨14, _⟩ => ⟨S1360000, .f32⟩
  | .hbm, ⟨15, _⟩ => ⟨S_, .f32⟩
  | .hbm, ⟨16, _⟩ => ⟨S80000, .f32⟩
  | .hbm, ⟨17, _⟩ => ⟨S1360000x1, .i32⟩
  | .hbm, ⟨18, _⟩ => ⟨S80000, .f32⟩
  | .hbm, ⟨19, _⟩ => ⟨S_, .f32⟩
  | .hbm, ⟨20, _⟩ => ⟨S80000, .f32⟩
  | .hbm, ⟨21, _⟩ => ⟨S80000, .i1⟩
  | .hbm, ⟨22, _⟩ => ⟨S80000, .f32⟩
  | .hbm, ⟨23, _⟩ => ⟨S_, .f32⟩
  | .hbm, ⟨24, _⟩ => ⟨S_, .f32⟩
  | .hbm, ⟨25, _⟩ => ⟨S80000, .f32⟩
  | .hbm, ⟨26, _⟩ => ⟨S80000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S_, .i32⟩
  | .hbm, ⟨37, _⟩ => ⟨S1360000, .i32⟩
  | .hbm, ⟨38, _⟩ => ⟨S1360000, .i1⟩
  | .hbm, ⟨39, _⟩ => ⟨S_, .i32⟩
  | .hbm, ⟨40, _⟩ => ⟨S1360000, .i32⟩
  | .hbm, ⟨41, _⟩ => ⟨S1360000, .i32⟩
  | .hbm, ⟨42, _⟩ => ⟨S1360000, .i32⟩
  | .hbm, ⟨43, _⟩ => ⟨S1360000x1, .i32⟩
  | .hbm, ⟨44, _⟩ => ⟨S1360000, .f32⟩
  | .hbm, ⟨45, _⟩ => ⟨S1360000, .f32⟩
  | .hbm, ⟨46, _⟩ => ⟨S80000x64, .f32⟩
  | .hbm, ⟨47, _⟩ => ⟨S_, .i32⟩
  | .hbm, ⟨48, _⟩ => ⟨S1360000, .i32⟩
  | .hbm, ⟨49, _⟩ => ⟨S1360000, .i1⟩
  | .hbm, ⟨50, _⟩ => ⟨S_, .i32⟩
  | .hbm, ⟨51, _⟩ => ⟨S1360000, .i32⟩
  | .hbm, ⟨52, _⟩ => ⟨S1360000, .i32⟩
  | .hbm, ⟨53, _⟩ => ⟨S1360000, .i32⟩
  | .hbm, ⟨54, _⟩ => ⟨S1360000x1, .i32⟩
  | .hbm, ⟨55, _⟩ => ⟨S1360000x64, .f32⟩
  | .hbm, ⟨56, _⟩ => ⟨S1360000x1, .f32⟩
  | .hbm, ⟨57, _⟩ => ⟨S1360000x64, .f32⟩
  | .hbm, ⟨58, _⟩ => ⟨S1360000x64, .f32⟩
  | .hbm, ⟨59, _⟩ => ⟨S_, .f32⟩
  | .hbm, ⟨60, _⟩ => ⟨S80000x64, .f32⟩
  | .hbm, ⟨61, _⟩ => ⟨S1360000x1, .i32⟩
  | .hbm, ⟨62, _⟩ => ⟨S80000x64, .f32⟩
  | .hbm, ⟨63, _⟩ => ⟨S1x64, .f32⟩
  | .hbm, ⟨64, _⟩ => ⟨S80000x64, .f32⟩
  | .hbm, ⟨65, _⟩ => ⟨S80000x32, .f32⟩
  | .hbm, ⟨66, _⟩ => ⟨S_, .i32⟩
  | .hbm, ⟨67, _⟩ => ⟨S1360000, .i32⟩
  | .hbm, ⟨68, _⟩ => ⟨S1360000, .i1⟩
  | .hbm, ⟨69, _⟩ => ⟨S_, .i32⟩
  | .hbm, ⟨70, _⟩ => ⟨S1360000, .i32⟩
  | .hbm, ⟨71, _⟩ => ⟨S1360000, .i32⟩
  | .hbm, ⟨72, _⟩ => ⟨S1360000, .i32⟩
  | .hbm, ⟨73, _⟩ => ⟨S1360000x1, .i32⟩
  | .hbm, ⟨74, _⟩ => ⟨S1360000x32, .f32⟩
  | .hbm, ⟨75, _⟩ => ⟨S1360000x1, .f32⟩
  | .hbm, ⟨76, _⟩ => ⟨S1360000x32, .f32⟩
  | .hbm, ⟨77, _⟩ => ⟨S1360000x32, .f32⟩
  | .hbm, ⟨78, _⟩ => ⟨S_, .f32⟩
  | .hbm, ⟨79, _⟩ => ⟨S80000x32, .f32⟩
  | .hbm, ⟨80, _⟩ => ⟨S1360000x1, .i32⟩
  | .hbm, ⟨81, _⟩ => ⟨S80000x32, .f32⟩
  | .hbm, ⟨82, _⟩ => ⟨S1x32, .f32⟩
  | .hbm, ⟨83, _⟩ => ⟨S80000x32, .f32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S64x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S1x32, .f32⟩
  | .local _ .vmem, ⟨18, _⟩ => ⟨S8000x32, .f32⟩
  | .local _ .vmem, ⟨19, _⟩ => ⟨S8000x32, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8000x64_S8000x64_0_0 : ∀ a, (![0, 0] : Fin 2 → Nat) a + S8000x64.size a ≤ S8000x64.size a
  h_S8000x64 : 0 < S8000x64.numel
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  shapeCasts_S64_S1x64 : S64.ShapeCasts S1x64
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S8000x32_S8000x32_0_0 : ∀ a, (![0, 0] : Fin 2 → Nat) a + S8000x32.size a ≤ S8000x32.size a
  h_S8000x32 : 0 < S8000x32.numel
  bcast_S1360000x1_S1360000x32_0_1 : S1360000x1.BroadcastsInDim S1360000x32 (![0, 1] : Fin 2 → Fin S1360000x32.rank)
  bcast_S_S80000x32 : S_.BroadcastsInDim S80000x32 (![] : Fin 0 → Fin S80000x32.rank)
  shapeCasts_S32_S1x32 : S32.ShapeCasts S1x32
  shapeCasts_S8000x32_S8000x32 : S8000x32.ShapeCasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S8000x128_S128x64_S8000x64_1_0_0_1_n_n_wf : DotDims.WF S8000x128 S128x64 S8000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  dot_S8000x64_S64x32_S8000x32_1_0_0_1_n_n_wf : DotDims.WF S8000x64 S64x32 S8000x32 [1] [0] [0] [1] [] []
  gather_S80000x32_S1360000x1_S1360000x32_1_0_n_n_0_1_132_wf : GatherDims.WF S80000x32 S1360000x1 S1360000x32 [1] [0] [] [0] [] 1 ![1, 32]
  scatter_S80000x32_S1360000x1_S1360000x32_1_0_0_1_wf : ScatterDims.WF S80000x32 S1360000x1 S1360000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S80000x128.size a
  hwx0_0 : ∀ i : grid0.Coords, EltTy.bits .f32 = 32 ∨ (Rect.block (s := S80000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S80000x64.size a
  hwx1_2 : ∀ i : grid1.Coords, EltTy.bits .f32 = 32 ∨ (Rect.block (s := S80000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S80000x64.size a
  hwx2_0 : ∀ i : grid2.Coords, EltTy.bits .f32 = 32 ∨ (Rect.block (s := S80000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S80000x32.size a
  hwx2_2 : ∀ i : grid2.Coords, EltTy.bits .f32 = 32 ∨ (Rect.block (s := S80000x32) S8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S80000x32.size a
  hwx3_0 : ∀ i : grid3.Coords, EltTy.bits .f32 = 32 ∨ (Rect.block (s := S80000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S80000x32.size a
  hwx3_2 : ∀ i : grid3.Coords, EltTy.bits .f32 = 32 ∨ (Rect.block (s := S80000x32) S8000x32.size (cc3_transform_2 i) (hinb3_2 i)).WholeWords (EltTy.packing .f32)

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def gather_S80000x32_S1360000x1_S1360000x32_1_0_n_n_0_1_132 : GatherDims S80000x32 S1360000x1 S1360000x32 where
  offsetDims := [1]
  collapsedSliceDims := [0]
  operandBatchingDims := []
  startIndicesBatchingDims := []
  startIndexMap := [0]
  indexVectorDim := 1
  sliceSizes := ![1, 32]
  wf := gather_S80000x32_S1360000x1_S1360000x32_1_0_n_n_0_1_132_wf
def scatter_S80000x32_S1360000x1_S1360000x32_1_0_0_1 : ScatterDims S80000x32 S1360000x1 S1360000x32 where
  updateWindowDims := [1]
  insertedWindowDims := [0]
  scatterDimsToOperandDims := [0]
  indexVectorDim := 1
  wf := scatter_S80000x32_S1360000x1_S1360000x32_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S80000x64 : Shape := ⟨2, ![80000, 64]⟩
abbrev S1360000x64 : Shape := ⟨2, ![1360000, 64]⟩
abbrev S1x64 : Shape := ⟨2, ![1, 64]⟩
abbrev S80000x32 : Shape := ⟨2, ![80000, 32]⟩
abbrev S1360000x32 : Shape := ⟨2, ![1360000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S80000x128, .f32⟩
  | .hbm, ⟨1, _⟩ => ⟨S2x1280000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S80000, .i32⟩
  | .hbm, ⟨11, _⟩ => ⟨S1360000, .i32⟩
  | .hbm, ⟨12, _⟩ => ⟨S1360000, .i32⟩
  | .hbm, ⟨13, _⟩ => ⟨S_, .f32⟩
  | .hbm, ⟨14, _⟩ => ⟨S1360000, .f32⟩
  | .hbm, ⟨15, _⟩ => ⟨S_, .f32⟩
  | .hbm, ⟨16, _⟩ => ⟨S80000, .f32⟩
  | .hbm, ⟨17, _⟩ => ⟨S1360000x1, .i32⟩
  | .hbm, ⟨18, _⟩ => ⟨S80000, .f32⟩
  | .hbm, ⟨19, _⟩ => ⟨S_, .f32⟩
  | .hbm, ⟨20, _⟩ => ⟨S80000, .f32⟩
  | .hbm, ⟨21, _⟩ => ⟨S80000, .i1⟩
  | .hbm, ⟨22, _⟩ => ⟨S80000, .f32⟩
  | .hbm, ⟨23, _⟩ => ⟨S_, .f32⟩
  | .hbm, ⟨24, _⟩ => ⟨S_, .f32⟩
  | .hbm, ⟨25, _⟩ => ⟨S80000, .f32⟩
  | .hbm, ⟨26, _⟩ => ⟨S80000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S_, .i32⟩
  | .hbm, ⟨37, _⟩ => ⟨S1360000, .i32⟩
  | .hbm, ⟨38, _⟩ => ⟨S1360000, .i1⟩
  | .hbm, ⟨39, _⟩ => ⟨S_, .i32⟩
  | .hbm, ⟨40, _⟩ => ⟨S1360000, .i32⟩
  | .hbm, ⟨41, _⟩ => ⟨S1360000, .i32⟩
  | .hbm, ⟨42, _⟩ => ⟨S1360000, .i32⟩
  | .hbm, ⟨43, _⟩ => ⟨S1360000x1, .i32⟩
  | .hbm, ⟨44, _⟩ => ⟨S1360000, .f32⟩
  | .hbm, ⟨45, _⟩ => ⟨S1360000, .f32⟩
  | .hbm, ⟨46, _⟩ => ⟨S80000x64, .f32⟩
  | .hbm, ⟨47, _⟩ => ⟨S_, .i32⟩
  | .hbm, ⟨48, _⟩ => ⟨S1360000, .i32⟩
  | .hbm, ⟨49, _⟩ => ⟨S1360000, .i1⟩
  | .hbm, ⟨50, _⟩ => ⟨S_, .i32⟩
  | .hbm, ⟨51, _⟩ => ⟨S1360000, .i32⟩
  | .hbm, ⟨52, _⟩ => ⟨S1360000, .i32⟩
  | .hbm, ⟨53, _⟩ => ⟨S1360000, .i32⟩
  | .hbm, ⟨54, _⟩ => ⟨S1360000x1, .i32⟩
  | .hbm, ⟨55, _⟩ => ⟨S1360000x64, .f32⟩
  | .hbm, ⟨56, _⟩ => ⟨S1360000x1, .f32⟩
  | .hbm, ⟨57, _⟩ => ⟨S1360000x64, .f32⟩
  | .hbm, ⟨58, _⟩ => ⟨S1360000x64, .f32⟩
  | .hbm, ⟨59, _⟩ => ⟨S_, .f32⟩
  | .hbm, ⟨60, _⟩ => ⟨S80000x64, .f32⟩
  | .hbm, ⟨61, _⟩ => ⟨S1360000x1, .i32⟩
  | .hbm, ⟨62, _⟩ => ⟨S80000x64, .f32⟩
  | .hbm, ⟨63, _⟩ => ⟨S1x64, .f32⟩
  | .hbm, ⟨64, _⟩ => ⟨S80000x64, .f32⟩
  | .hbm, ⟨65, _⟩ => ⟨S80000x64, .f32⟩
  | .hbm, ⟨66, _⟩ => ⟨S_, .f32⟩
  | .hbm, ⟨67, _⟩ => ⟨S80000x64, .f32⟩
  | .hbm, ⟨68, _⟩ => ⟨S80000x64, .f32⟩
  | .hbm, ⟨69, _⟩ => ⟨S80000, .i32⟩
  | .hbm, ⟨70, _⟩ => ⟨S1360000, .i32⟩
  | .hbm, ⟨71, _⟩ => ⟨S1360000, .i32⟩
  | .hbm, ⟨72, _⟩ => ⟨S_, .f32⟩
  | .hbm, ⟨73, _⟩ => ⟨S1360000, .f32⟩
  | .hbm, ⟨74, _⟩ => ⟨S_, .f32⟩
  | .hbm, ⟨75, _⟩ => ⟨S80000, .f32⟩
  | .hbm, ⟨76, _⟩ => ⟨S1360000x1, .i32⟩
  | .hbm, ⟨77, _⟩ => ⟨S80000, .f32⟩
  | .hbm, ⟨78, _⟩ => ⟨S_, .f32⟩
  | .hbm, ⟨79, _⟩ => ⟨S80000, .f32⟩
  | .hbm, ⟨80, _⟩ => ⟨S80000, .i1⟩
  | .hbm, ⟨81, _⟩ => ⟨S80000, .f32⟩
  | .hbm, ⟨82, _⟩ => ⟨S_, .f32⟩
  | .hbm, ⟨83, _⟩ => ⟨S_, .f32⟩
  | .hbm, ⟨84, _⟩ => ⟨S80000, .f32⟩
  | .hbm, ⟨85, _⟩ => ⟨S80000, .f32⟩
  | .hbm, ⟨86, _⟩ => ⟨S_, .i32⟩
  | .hbm, ⟨87, _⟩ => ⟨S1360000, .i32⟩
  | .hbm, ⟨88, _⟩ => ⟨S1360000, .i1⟩
  | .hbm, ⟨89, _⟩ => ⟨S_, .i32⟩
  | .hbm, ⟨90, _⟩ => ⟨S1360000, .i32⟩
  | .hbm, ⟨91, _⟩ => ⟨S1360000, .i32⟩
  | .hbm, ⟨92, _⟩ => ⟨S1360000, .i32⟩
  | .hbm, ⟨93, _⟩ => ⟨S1360000x1, .i32⟩
  | .hbm, ⟨94, _⟩ => ⟨S1360000, .f32⟩
  | .hbm, ⟨95, _⟩ => ⟨S_, .i32⟩
  | .hbm, ⟨96, _⟩ => ⟨S1360000, .i32⟩
  | .hbm, ⟨97, _⟩ => ⟨S1360000, .i1⟩
  | .hbm, ⟨98, _⟩ => ⟨S_, .i32⟩
  | .hbm, ⟨99, _⟩ => ⟨S1360000, .i32⟩
  | .hbm, ⟨100, _⟩ => ⟨S1360000, .i32⟩
  | .hbm, ⟨101, _⟩ => ⟨S1360000, .i32⟩
  | .hbm, ⟨102, _⟩ => ⟨S1360000x1, .i32⟩
  | .hbm, ⟨103, _⟩ => ⟨S1360000, .f32⟩
  | .hbm, ⟨104, _⟩ => ⟨S1360000, .f32⟩
  | .hbm, ⟨105, _⟩ => ⟨S80000x32, .f32⟩
  | .hbm, ⟨106, _⟩ => ⟨S_, .i32⟩
  | .hbm, ⟨107, _⟩ => ⟨S1360000, .i32⟩
  | .hbm, ⟨108, _⟩ => ⟨S1360000, .i1⟩
  | .hbm, ⟨109, _⟩ => ⟨S_, .i32⟩
  | .hbm, ⟨110, _⟩ => ⟨S1360000, .i32⟩
  | .hbm, ⟨111, _⟩ => ⟨S1360000, .i32⟩
  | .hbm, ⟨112, _⟩ => ⟨S1360000, .i32⟩
  | .hbm, ⟨113, _⟩ => ⟨S1360000x1, .i32⟩
  | .hbm, ⟨114, _⟩ => ⟨S1360000x32, .f32⟩
  | .hbm, ⟨115, _⟩ => ⟨S1360000x1, .f32⟩
  | .hbm, ⟨116, _⟩ => ⟨S1360000x32, .f32⟩
  | .hbm, ⟨117, _⟩ => ⟨S1360000x32, .f32⟩
  | .hbm, ⟨118, _⟩ => ⟨S_, .f32⟩
  | .hbm, ⟨119, _⟩ => ⟨S80000x32, .f32⟩
  | .hbm, ⟨120, _⟩ => ⟨S1360000x1, .i32⟩
  | .hbm, ⟨121, _⟩ => ⟨S80000x32, .f32⟩
  | .hbm, ⟨122, _⟩ => ⟨S1x32, .f32⟩
  | .hbm, ⟨123, _⟩ => ⟨S80000x32, .f32⟩
  | .hbm, ⟨124, _⟩ => ⟨S80000x32, .f32⟩
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S1360000x1_S1360000x32_0_1 : S1360000x1.BroadcastsInDim S1360000x32 (![0, 1] : Fin 2 → Fin S1360000x32.rank)
  bcast_S_S80000x32 : S_.BroadcastsInDim S80000x32 (![] : Fin 0 → Fin S80000x32.rank)
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S80000x128_S128x64_S80000x64_1_0_0_1_n_n_wf : DotDims.WF S80000x128 S128x64 S80000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  dot_S80000x64_S64x32_S80000x32_1_0_0_1_n_n_wf : DotDims.WF S80000x64 S64x32 S80000x32 [1] [0] [0] [1] [] []
  gather_S80000x32_S1360000x1_S1360000x32_1_0_n_n_0_1_132_wf : GatherDims.WF S80000x32 S1360000x1 S1360000x32 [1] [0] [] [0] [] 1 ![1, 32]
  scatter_S80000x32_S1360000x1_S1360000x32_1_0_0_1_wf : ScatterDims.WF S80000x32 S1360000x1 S1360000x32 [1] [0] [0] 1

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def dot_S80000x64_S64x32_S80000x32_1_0_0_1_n_n : DotDims S80000x64 S64x32 S80000x32 where
  lhsContracting := [1]
  rhsContracting := [0]
  lhsNonContracting := [0]
  rhsNonContracting := [1]
  lhsBatch := []
  rhsBatch := []
  wf := dot_S80000x64_S64x32_S80000x32_1_0_0_1_n_n_wf
def gather_S80000x32_S1360000x1_S1360000x32_1_0_n_n_0_1_132 : GatherDims S80000x32 S1360000x1 S1360000x32 where
  offsetDims := [1]
  collapsedSliceDims := [0]
  operandBatchingDims := []
  startIndicesBatchingDims := []
  startIndexMap := [0]
  indexVectorDim := 1
  sliceSizes := ![1, 32]
  wf := gather_S80000x32_S1360000x1_S1360000x32_1_0_n_n_0_1_132_wf
def scatter_S80000x32_S1360000x1_S1360000x32_1_0_0_1 : ScatterDims S80000x32 S1360000x1 S1360000x32 where
  updateWindowDims := [1]
  insertedWindowDims := [0]
  scatterDimsToOperandDims := [0]
  indexVectorDim := 1
  wf := scatter_S80000x32_S1360000x1_S1360000x32_1_0_0_1_wf

class Facts : Prop extends Facts₀ where

variable [Facts]
-- ==== Proof.Layers.lean ====
/-
  The two-layer graph convolution as a composition of layer functions of whole arrays.

  Write s, d for the source and destination lists of the 1,280,000 edges followed by the 80,000 self loops, and
  ν(e) = dinv(s e) · dinv(d e) for the symmetric normalisation, where dinv is the inverse square root of the
  in-degree (0 where the degree is not positive). One layer maps a feature table X to

      act ( (∑ over messages e with d e = i of ν(e) · (X · W)(s e, ·)) + b ),

  that is: a dense product, a normalised sum over incoming messages, a bias row added to every row and, for the
  hidden layer only, the positive part. The functions below name these four steps for the two widths (64 and 32) the
  network uses; each is stated with the very index, normalisation and zero arrays the reference program computes, so
  that the reference's result is their composition by unfolding names.
-/
import proofs.«103595_j4363686773056_1_alg».proof.Proof.ReferenceReadPatched
import Idealize.ShloMosaic.Lib.Pipeline.Value
import Idealize.ShloMosaic.Lib.ValueIdx
import Idealize.ShloMosaic.PureOps.Ideal.Laws

noncomputable section

namespace Cert.Layers

open Cert.ReferenceIdeal Cert.ReferenceIdeal.ReadP Idealize.ShloMosaic

variable {F : FTy → Type} [FloatOps F]

/-- Rows of the hidden width: the 80,000 × 64 tables. -/
abbrev Hidden (F : FTy → Type) [FloatOps F] := (⟨S80000x64, .f32⟩ : BufTy).Contents (Elt F)
/-- Rows of the output width: the 80,000 × 32 tables. -/
abbrev Output (F : FTy → Type) [FloatOps F] := (⟨S80000x32, .f32⟩ : BufTy).Contents (Elt F)
/-- The edge list: two rows (sources, destinations) of 1,280,000 node numbers. -/
abbrev Edges (F : FTy → Type) [FloatOps F] := (⟨S2x1280000, .i32⟩ : BufTy).Contents (Elt F)

/-- The normalised sum over incoming messages at width 64: row i of the result is the sum, over the messages e whose
    destination is i, of ν(e) times row (s e) of `h` — gathered by source, scaled, scatter-added by destination
    into a zero table. -/
def neighbourSum64 (h : Hidden F) (ei : Edges F) : Hidden F :=
  Host.scatterAdd scatter_S80000x64_S1360000x1_S1360000x64_1_0_0_1 (val_main_v41 (F := F)) (val_main_v42 (F := F) ei)
    (mulf (Host.gather gather_S80000x64_S1360000x1_S1360000x64_1_0_n_n_0_1_164 h (val_main_v36 (F := F) ei))
      (val_main_v39 (F := F) ei))

/-- The same sum at width 32 (the second layer's messages; its index and normalisation arrays are the second copies
    the reference computes, equal to the first). -/
def neighbourSum32 (h : Output F) (ei : Edges F) : Output F :=
  Host.scatterAdd scatter_S80000x32_S1360000x1_S1360000x32_1_0_0_1 (val_main_v85 (F := F)) (val_main_v86 (F := F) ei)
    (mulf (Host.gather gather_S80000x32_S1360000x1_S1360000x32_1_0_n_n_0_1_132 h (val_main_v80 (F := F) ei))
      (val_main_v83 (F := F) ei))

/-- The hidden layer's epilogue: the bias row added to every row, then the positive part. -/
def biasRelu (a : Hidden F) (b : (⟨S64, .f32⟩ : BufTy).Contents (Elt F)) : Hidden F :=
  maximumf (addf a (val_main_v45 (F := F) b)) (val_main_call1_v0 (F := F))

/-- The second dense product: an 80,000 × 64 table times the 64 × 32 weights. -/
def dense32 (a : Hidden F) (w : (⟨S64x32, .f32⟩ : BufTy).Contents (Elt F)) : Output F :=
  Host.dotGeneral dot_S80000x64_S64x32_S80000x32_1_0_0_1_n_n none a w

/-- The output layer's epilogue: the bias row added to every row. -/
def biasRow (a : Output F) (b : (⟨S32, .f32⟩ : BufTy).Contents (Elt F)) : Output F :=
  addf a (val_main_v89 (F := F) b)

/-- The network: dense product, neighbour sum, bias and positive part; dense product, neighbour sum, bias. -/
def gcn (x : (⟨S80000x128, .f32⟩ : BufTy).Contents (Elt F)) (ei : Edges F) (w1 : (⟨S128x64, .f32⟩ : BufTy).Contents (Elt F))
    (b1 : (⟨S64, .f32⟩ : BufTy).Contents (Elt F)) (w2 : (⟨S64x32, .f32⟩ : BufTy).Contents (Elt F))
    (b2 : (⟨S32, .f32⟩ : BufTy).Contents (Elt F)) : Output F :=
  biasRow (neighbourSum32 (dense32 (biasRelu (neighbourSum64 (val_main_v30 (F := F) x w1) ei) b1) w2) ei) b2

/-- The reference program's result is the network: its stages are these steps, name by name. -/
theorem reference_eq (x : (⟨S80000x128, .f32⟩ : BufTy).Contents (Elt F)) (ei : Edges F)
    (w1 : (⟨S128x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) :
    val_main_v90 (F := F) x ei w1 b1 w2 b2 = gcn x ei w1 b1 w2 b2 := rfl

/-! ## The steps read at an index -/

/-- The second dense product at (i, q), at the exact values: ∑ₖ a(i, k) · w(k, q). -/
theorem dense32_apply (a : Hidden Ideal) (w : (⟨S64x32, .f32⟩ : BufTy).Contents (Elt Ideal)) (i : S80000x32.Idx) :
    dense32 (F := Ideal) a w i = ∑ k : Fin 64, a (lidx_main_v74 i k) * w (ridx_main_v74 i k) := by
  unfold dense32
  simp only [Host.dotGeneral]
  rw [Ideal.dotGeneral_apply, ← Equiv.sum_comp (ValueIdx.contrEquiv1 dot_S80000x64_S64x32_S80000x32_1_0_0_1_n_n 64 rfl rfl).symm]
  refine Finset.sum_congr rfl fun k _ => ?_
  have hk := ValueIdx.contrEquiv1_symm_val dot_S80000x64_S64x32_S80000x32_1_0_0_1_n_n 64 rfl rfl k
  have el : dot_S80000x64_S64x32_S80000x32_1_0_0_1_n_n.lhsIdx i ((ValueIdx.contrEquiv1 dot_S80000x64_S64x32_S80000x32_1_0_0_1_n_n 64 rfl rfl).symm k) = lidx_main_v74 i k := funext fun a => Fin.ext (by
    match a with
    | ⟨0, _⟩ => exact lhs_main_v74_0 _ _
    | ⟨1, _⟩ => exact (lhs_main_v74_1 _ _).trans hk)
  have er : dot_S80000x64_S64x32_S80000x32_1_0_0_1_n_n.rhsIdx i ((ValueIdx.contrEquiv1 dot_S80000x64_S64x32_S80000x32_1_0_0_1_n_n 64 rfl rfl).symm k) = ridx_main_v74 i k := funext fun a => Fin.ext (by
    match a with
    | ⟨0, _⟩ => exact (rhs_main_v74_0 _ _).trans hk
    | ⟨1, _⟩ => exact rhs_main_v74_1 _ _)
  rw [el, er]

/-- The hidden epilogue at (i, q): the larger of a(i, q) + b(q) and zero. -/
theorem biasRelu_apply (a : Hidden F) (b : (⟨S64, .f32⟩ : BufTy).Contents (Elt F)) (i : S80000x64.Idx) :
    biasRelu a b i = FloatOps.maximumf (FloatOps.addf (a i) (b (idx_main_v44 (idx_main_v45 i)))) (FloatOps.ofBits .f32 0x00000000#32) := by
  show FloatOps.maximumf (FloatOps.addf (a i) (val_main_v45 (F := F) b i)) (val_main_call1_v0 (F := F) i) = _
  rw [val_main_v45_apply, val_main_v44_apply, val_main_call1_v0_apply, val_main_call1_cst_apply]

/-- The output epilogue at (i, q): a(i, q) + b(q). -/
theorem biasRow_apply (a : Output F) (b : (⟨S32, .f32⟩ : BufTy).Contents (Elt F)) (i : S80000x32.Idx) :
    biasRow a b i = FloatOps.addf (a i) (b (idx_main_v88 (idx_main_v89 i))) := by
  show FloatOps.addf (a i) (val_main_v89 (F := F) b i) = _
  rw [val_main_v89_apply, val_main_v88_apply]

/-- A bias vector laid as ONE ROW by a reshape and read above every entry is the bias vector broadcast along the rows:
    entry (0, q) of the row is entry q of the vector. With the positive part. -/
theorem biasRelu_of_row (a : Hidden F) (b : (⟨S64, .f32⟩ : BufTy).Contents (Elt F)) (h : S64.ShapeCasts S1x64)
    (above : S80000x64.Idx → S1x64.Idx) (habove : ∀ i, above i = idx_main_v45 i) :
    (fun i : S80000x64.Idx => FloatOps.maximumf (FloatOps.addf (a i) (shapeCast S1x64 b h (above i))) (FloatOps.ofBits .f32 0x00000000#32))
      = biasRelu a b := by
  funext i
  rw [biasRelu_apply, habove,
    shapeCast_apply b h (idx_main_v45 i) (idx_main_v44 (idx_main_v45 i)) (by
      rw [Shape.rowMajor_val_one, Shape.rowMajor_val_two]; show (i 1).val = 0 * 64 + (i 1).val; omega)]

/-- The same without the positive part, at width 32. -/
theorem biasRow_of_row (a : Output F) (b : (⟨S32, .f32⟩ : BufTy).Contents (Elt F)) (h : S32.ShapeCasts S1x32)
    (above : S80000x32.Idx → S1x32.Idx) (habove : ∀ i, above i = idx_main_v89 i) :
    (fun i : S80000x32.Idx => FloatOps.addf (a i) (shapeCast S1x32 b h (above i))) = biasRow a b := by
  funext i
  rw [biasRow_apply, habove,
    shapeCast_apply b h (idx_main_v89 i) (idx_main_v88 (idx_main_v89 i)) (by
      rw [Shape.rowMajor_val_one, Shape.rowMajor_val_two]; show (i 1).val = 0 * 32 + (i 1).val; omega)]

end Cert.Layers

end
-- ==== Proof.KernelRun.lean ====
/-
  The idealized kernel program's run with its result named.

  The program is nine segments: three stretches of host operations, the first dense product (a grid of 10 row
  tiles), a stretch of host operations (the first neighbour sum), the first epilogue and the second dense product
  (10 tiles each), a stretch of host operations (the second neighbour sum), and the second epilogue (10 tiles).
  Every weakly fair execution ends with each unscoped buffer at the contents of the last segment boundary; read at
  the result buffer that is the value this certificate is about, and read at the six argument buffers it is the
  launch contents.
-/
import proofs.«103595_j4363686773056_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.HostStretches.lean ====
/-
  The host stretches of the kernel program, each read as a function of the buffer contents it starts from.

  Between its four tiled regions the kernel program runs on the host exactly the operations the reference runs:
  the index lists and the normalisation before the first product, the gather–scale–scatter-add of the messages after
  each product, and a reshape of each bias vector into one row. Over an arbitrary valuation `W` of the buffers a stretch
  is a fold of its operations, and the buffer it writes last holds the operations' composed term of the buffers it
  read. Those terms are the reference's own stages (the index lists, the normalisation) and the layer functions
  (the neighbour sums), by unfolding names; a buffer no operation of a stretch writes keeps its contents.
-/
import proofs.«103595_j4363686773056_1_alg».proof.Proof.Gen.KernelIdeal.Launch
import proofs.«103595_j4363686773056_1_alg».proof.Proof.Layers
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29)

variable {F : FTy → Type} [FloatOps F]
variable (W : Valuation τ sig (Elt F))

/-! ## Before the first product: the index lists and the normalisation -/

/-- The buffer contents when the first region is entered: the three opening stretches folded over `W`. -/
abbrev opening : Valuation τ sig (Elt F) := after hostOps0_2 (after hostOps0_1 (after hostOps0 W))

/-- The source list s: the edges' sources followed by the self loops. -/
theorem opening_sources :
    opening W (Proc.devRef .tc main_v5) = val_main_v5 (F := F) (W (Proc.devRef .tc main_arg1)) := by
  dsimp only [opening, hostOps0, hostOps0_1, hostOps0_2]
  after_results_simp <;> rfl

/-- The destination list d. -/
theorem opening_destinations :
    opening W (Proc.devRef .tc main_v6) = val_main_v6 (F := F) (W (Proc.devRef .tc main_arg1)) := by
  dsimp only [opening, hostOps0, hostOps0_1, hostOps0_2]
  after_results_simp <;> rfl

/-- The normalisation ν = dinv(s) · dinv(d). -/
theorem opening_norm :
    opening W (Proc.devRef .tc main_v29) = val_main_v29 (F := F) (W (Proc.devRef .tc main_arg1)) := by
  dsimp only [opening, hostOps0, hostOps0_1, hostOps0_2]
  after_results_simp <;> rfl

/-- The opening stretches write none of the float arguments. -/
theorem opening_arg0 : opening W (Proc.devRef .tc main_arg0) = W (Proc.devRef .tc main_arg0) := by
  dsimp only [opening, hostOps0, hostOps0_1, hostOps0_2]; after_results_simp
theorem opening_arg2 : opening W (Proc.devRef .tc main_arg2) = W (Proc.devRef .tc main_arg2) := by
  dsimp only [opening, hostOps0, hostOps0_1, hostOps0_2]; after_results_simp
theorem opening_arg3 : opening W (Proc.devRef .tc main_arg3) = W (Proc.devRef .tc main_arg3) := by
  dsimp only [opening, hostOps0, hostOps0_1, hostOps0_2]; after_results_simp
theorem opening_arg4 : opening W (Proc.devRef .tc main_arg4) = W (Proc.devRef .tc main_arg4) := by
  dsimp only [opening, hostOps0, hostOps0_1, hostOps0_2]; after_results_simp
theorem opening_arg5 : opening W (Proc.devRef .tc main_arg5) = W (Proc.devRef .tc main_arg5) := by
  dsimp only [opening, hostOps0, hostOps0_1, hostOps0_2]; after_results_simp

/-! ## After the first product: the first neighbour sum and the first bias row -/

/-- From contents whose index lists and normalisation are the reference's of an edge list `ei`, the stretch leaves the
    width-64 neighbour sum of the product it finds. -/
theorem first_sum (ei : Layers.Edges F)
    (h5 : W (Proc.devRef .tc main_v5) = val_main_v5 (F := F) ei) (h6 : W (Proc.devRef .tc main_v6) = val_main_v6 (F := F) ei)
    (h29 : W (Proc.devRef .tc main_v29) = val_main_v29 (F := F) ei) :
    after hostOps1 W (Proc.devRef .tc main_v43) = Layers.neighbourSum64 (W (Proc.devRef .tc main_v30)) ei := by
  dsimp only [hostOps1]
  after_results_simp
  rw [h5, h6, h29]
  rfl

/-- The first bias vector laid as one row. -/
theorem first_bias_row :
    after hostOps1 W (Proc.devRef .tc main_v44) = shapeCast S1x64 (W (Proc.devRef .tc main_arg3)) shapeCasts_S64_S1x64 := by
  dsimp only [hostOps1]
  after_results_simp <;> rfl

/-- What the stretch leaves alone. -/
theorem first_keeps_v5 : after hostOps1 W (Proc.devRef .tc main_v5) = W (Proc.devRef .tc main_v5) := by
  dsimp only [hostOps1]; after_results_simp
theorem first_keeps_v6 : after hostOps1 W (Proc.devRef .tc main_v6) = W (Proc.devRef .tc main_v6) := by
  dsimp only [hostOps1]; after_results_simp
theorem first_keeps_v29 : after hostOps1 W (Proc.devRef .tc main_v29) = W (Proc.devRef .tc main_v29) := by
  dsimp only [hostOps1]; after_results_simp
theorem first_keeps_arg4 : after hostOps1 W (Proc.devRef .tc main_arg4) = W (Proc.devRef .tc main_arg4) := by
  dsimp only [hostOps1]; after_results_simp
theorem first_keeps_arg5 : after hostOps1 W (Proc.devRef .tc main_arg5) = W (Proc.devRef .tc main_arg5) := by
  dsimp only [hostOps1]; after_results_simp

/-! ## After the second product: the second neighbour sum and the second bias row -/

/-- From contents whose index lists and normalisation are the reference's of `ei`, the stretch leaves the width-32
    neighbour sum of the product it finds (the reference recomputes its index lists and normalisation for this layer
    from the same operations: the two copies are one term). -/
theorem second_sum (ei : Layers.Edges F)
    (h5 : W (Proc.devRef .tc main_v5) = val_main_v5 (F := F) ei) (h6 : W (Proc.devRef .tc main_v6) = val_main_v6 (F := F) ei)
    (h29 : W (Proc.devRef .tc main_v29) = val_main_v29 (F := F) ei) :
    after hostOps3 W (Proc.devRef .tc main_v59) = Layers.neighbourSum32 (W (Proc.devRef .tc main_v46)) ei := by
  dsimp only [hostOps3]
  after_results_simp
  rw [h5, h6, h29]
  rfl

/-- The second bias vector laid as one row. -/
theorem second_bias_row :
    after hostOps3 W (Proc.devRef .tc main_v60) = shapeCast S1x32 (W (Proc.devRef .tc main_arg5)) shapeCasts_S32_S1x32 := by
  dsimp only [hostOps3]
  after_results_simp <;> rfl

end Cert.KernelIdeal.Stretches

end
-- ==== Proof.FirstProduct.lean ====
/-
  The first dense product, tile by tile, is the whole product.

  The pipeline walks the 80,000 rows in 10 tiles of 8,000. At tile t the body loads rows 8000·t … 8000·t + 7999 of
  the left table and the whole 128 × 64 weight matrix, multiplies them into a zero accumulator, and stores the 8000 × 64
  product, which is written back to the same rows of the result. At the exact values a product accumulated into
  zero at (r, q) is ∑ₖ left(r, k) · weights(k, q) — the sum the reference's whole 80,000-row product has at the row
  8000·t + r — and the 10 tiles cover every row, so after the last tile the result array is the whole product of
  the arrays the region was entered with.
-/
import proofs.«103595_j4363686773056_1_alg».proof.Proof.Gen.KernelIdeal.Frame
import proofs.«103595_j4363686773056_1_alg».proof.Proof.ReferenceReadPatched
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)

/-- The all-zero offset of a whole-buffer access. -/
theorem hz : (![0, 0] : Fin 2 → Nat) = fun _ => 0 := funext fun a => by fin_cases a <;> rfl

/-- Row r, column k of a tile of the left table. -/
abbrev lrow (j : S8000x64.Idx) (k : Fin 128) : S8000x128.Idx := fun a => match a with
  | ⟨0, _⟩ => ⟨(j 0).val, (j 0).isLt⟩
  | ⟨1, _⟩ => ⟨k.val, k.isLt⟩
/-- Row k, column q of the weights. -/
abbrev rcol (j : S8000x64.Idx) (k : Fin 128) : S128x64.Idx := fun a => match a with
  | ⟨0, _⟩ => ⟨k.val, k.isLt⟩
  | ⟨1, _⟩ => ⟨(j 1).val, (j 1).isLt⟩

theorem lhs_0 (i : S8000x64.Idx) (q : dot_S8000x128_S128x64_S8000x64_1_0_0_1_n_n.contr.Idx) : (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_1 (i : S8000x64.Idx) (q : dot_S8000x128_S128x64_S8000x64_1_0_0_1_n_n.contr.Idx) : (dot_S8000x128_S128x64_S8000x64_1_0_0_1_n_n.lhsIdx i q 1).val = (q ⟨0, by decide⟩).val :=
  dot_S8000x128_S128x64_S8000x64_1_0_0_1_n_n.lhsIdx_val_of_single rfl i q
theorem rhs_0 (i : S8000x64.Idx) (q : dot_S8000x128_S128x64_S8000x64_1_0_0_1_n_n.contr.Idx) : (dot_S8000x128_S128x64_S8000x64_1_0_0_1_n_n.rhsIdx i q 0).val = (q ⟨0, by decide⟩).val :=
  dot_S8000x128_S128x64_S8000x64_1_0_0_1_n_n.rhsIdx_val_of_single rfl i q
theorem rhs_1 (i : S8000x64.Idx) (q : dot_S8000x128_S128x64_S8000x64_1_0_0_1_n_n.contr.Idx) : (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- One tile's stored value at (r, q): ∑ₖ left(r, k) · weights(k, q). The change of format on the way into the
    product is the identity at the exact values, and the accumulator it starts from is zero. -/
theorem tile_product (x0 : Vec Ideal S8000x128 .f32) (x1 : Vec Ideal S128x64 .f32) (j : S8000x64.Idx) :
    k0_pay1 (F := Ideal) x0 x1 j = ∑ k : Fin 128, x0 (lrow j k) * x1 (rcol j k) := by
  unfold k0_pay1
  simp only [matmul]
  rw [Ideal.matmul_constant_zero_apply, ← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx j ((ValueIdx.contrEquiv1 dot_S8000x128_S128x64_S8000x64_1_0_0_1_n_n 128 rfl rfl).symm k) = lrow j k := funext fun a => Fin.ext (by
    match a with
    | ⟨0, _⟩ => exact lhs_0 _ _
    | ⟨1, _⟩ => exact (lhs_1 _ _).trans hk)
  have er : dot_S8000x128_S128x64_S8000x64_1_0_0_1_n_n.rhsIdx j ((ValueIdx.contrEquiv1 dot_S8000x128_S128x64_S8000x64_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-- The printed block maps, decided over the grid: the left table's tile and the result's tile are the same block of
    rows, every other block index is 0, and the row block stays below 10. -/
theorem tile_indices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some tile's. -/
theorem tile_onto : ∀ q0 : Fin 10, ∃ t : Fin cfg0.N, win0_2.index t = ![q0.val, 0] :=
  (by decide +kernel : ∀ q0 : Fin 10, ∃ t : Fin grid0.N, win0_2.index t = ![q0.val, 0])

/-- Tile t of the product of two arrays is the product of tile t's rows of the left array with the whole right
    array: entry (r, q) of the tile is the whole product's entry (8000·t + r, q), sum by sum and term by term. -/
theorem tile_eq (X : FVec Ideal S80000x128 .f32) (Y : FVec Ideal S128x64 .f32) (t : Fin cfg0.N) (j : S8000x64.Idx) :
    k0_pay1 (F := Ideal) (fun y => X (((cfg0.win 0).blk t).view.emb y)) (fun y => Y (((cfg0.win 1).blk t).view.emb y)) j
      = Cert.ReferenceIdeal.ReadP.val_main_v30 (F := Ideal) X Y (((cfg0.win 2).blk t).view.emb j) := by
  obtain ⟨e0, e1, e2, e3, e4, e5⟩ := tile_indices t
  refine (tile_product _ _ j).trans ?_
  refine Eq.trans ?_ (Cert.ReferenceIdeal.ReadP.val_main_v30_apply X Y (((cfg0.win 2).blk t).view.emb j)).symm
  refine Finset.sum_congr rfl fun k _ => ?_
  show X (((cfg0.win 0).blk t).view.emb (lrow j k)) * Y (((cfg0.win 1).blk t).view.emb (rcol j k))
    = X (Cert.ReferenceIdeal.ReadP.lidx_main_v30 (((cfg0.win 2).blk t).view.emb j) k) * Y (Cert.ReferenceIdeal.ReadP.ridx_main_v30 (((cfg0.win 2).blk t).view.emb j) k)
  have h0 : ((cfg0.win 0).blk t).view.emb (lrow j k) = Cert.ReferenceIdeal.ReadP.lidx_main_v30 (((cfg0.win 2).blk t).view.emb j) k := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * k.val = k.val; omega
  have h1 : ((cfg0.win 1).blk t).view.emb (rcol j k) = Cert.ReferenceIdeal.ReadP.ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

variable (V : (c : Dev nD) → (b : Ref sig .tc) → Buf (Elt Ideal) ((c : Thread nD τ).loc b))

/-- The whole product of the two arrays the region is entered with. -/
abbrev whole (c : Dev nD) : FVec Ideal S80000x64 .f32 :=
  Cert.ReferenceIdeal.ReadP.val_main_v30 (F := Ideal) (V c main_arg0) (V c main_arg2)

/-- What tile t writes back is the whole product read through tile t's rows. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x64) hz]
  funext j
  exact tile_eq (V c main_arg0) (V c main_arg2) t j

/-- An index of the result lies in tile t's block iff each coordinate is in the block's range on its axis. -/
theorem mem_tile (t : Fin cfg0.N) (i : S80000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v30).slice (win0_2.rect t)).set ↔ _
  rw [View.set_slice_whole, Rect.mem_set_unit]
  exact Iff.rfl

/-- Every index of the result is in the block of the tile that holds its row: tile (row / 8000). -/
theorem tiles_cover (i : S80000x64.Idx) :
    ∃ t : Fin cfg0.N, (cfg0.win 2).flush t = true ∧ i ∈ ((cfg0.win 2).blk t).view.set := by
  have hi0 : (i 0).val < 80000 := (i 0).isLt
  have hi1 : (i 1).val < 64 := (i 1).isLt
  obtain ⟨t, ht⟩ := tile_onto ⟨(i 0).val / 8000, by omega⟩
  have q0 : win0_2.index t (0 : Fin 2) = (i 0).val / 8000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- After the last tile the result array is the whole product of the arrays the region was entered with. -/
theorem final (c : Dev nD) : (dat0 V c).arrAt 2 cfg0.N = whole V c :=
  (dat0 V c).arrAt_eq_of_cover 2 (whole V c) (fun t _ => flushed_eq V c t) (tiles_cover)

/-- The same with the two entry arrays named. -/
theorem final_of (c : Dev nD) (x : FVec Ideal S80000x128 .f32) (w : FVec Ideal S128x64 .f32)
    (hx : V c main_arg0 = x) (hw : V c main_arg2 = w) : (dat0 V c).arrAt 2 cfg0.N = Cert.ReferenceIdeal.ReadP.val_main_v30 (F := Ideal) x w := by
  subst hx hw
  exact final V c

end Cert.KernelIdeal.FirstProduct

end
-- ==== Proof.FirstEpilogue.lean ====
/-
  The hidden layer's bias and positive part, tile by tile, are one whole-array function.

  The pipeline walks the 80,000 rows in 10 tiles of 8,000. At tile t the body loads rows 8000·t … 8000·t + 7999 of
  the table and the one bias row, adds the bias entry of column q to every entry of column q, takes the larger of the
  sum and zero, and stores the tile, which is written back to the same rows of the result. Entry (r, q) of a tile
  depends on entry (r, q) of the table's tile and entry (0, q) of the bias row only, so the tile is the whole-array
  function below read through the tile's rows, and the 10 tiles cover every row.
-/
import proofs.«103595_j4363686773056_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.FirstEpilogue

open Cert.KernelIdeal Cert.KernelIdeal.Gen
open Idealize.ShloMosaic Idealize.ShloMosaic.TcCoe Idealize.SL.Sem
open Idealize.ShloMosaic.Pipeline (Dat)

/-- The all-zero offset of a whole-buffer access. -/
theorem hz : (![0, 0] : Fin 2 → Nat) = fun _ => 0 := funext fun a => by fin_cases a <;> rfl

/-- The bias row's entry above entry (r, q) of a tile: (0, q). -/
abbrev above (j : S8000x64.Idx) : S1x64.Idx := fun a => match a with
  | ⟨0, _⟩ => ⟨0, Nat.one_pos⟩
  | ⟨1, _⟩ => ⟨(j 1).val, (j 1).isLt⟩
/-- The bias row's entry above entry (i, q) of the whole table: (0, q). -/
abbrev aboveAll (i : S80000x64.Idx) : S1x64.Idx := fun a => match a with
  | ⟨0, _⟩ => ⟨0, Nat.one_pos⟩
  | ⟨1, _⟩ => ⟨(i 1).val, (i 1).isLt⟩

/-- One tile's stored value at (r, q): the larger of table(r, q) + bias(0, q) and zero. The casts to the same shape are the
    identity and the broadcast of the one row down the tile reads the row at column q. -/
theorem tile_value (x0 : FVec Ideal S8000x64 .f32) (x1 : FVec Ideal S1x64 .f32) (j : S8000x64.Idx) :
    k1_pay1 (F := Ideal) x0 x1 j = FloatOps.maximumf (F := Ideal) (φ := .f32) (FloatOps.addf (F := Ideal) (φ := .f32) (x0 j) (x1 (above j))) (FloatOps.ofBits (F := Ideal) .f32 0x00000000#32) := by
  unfold k1_pay1
  have hb : broadcastTo S8000x64 (shapeCast S1x64 x1 shapeCasts_S1x64_S1x64) broadcasts_S1x64_S8000x64 j = x1 (above j) := by
    rw [shapeCast_self]
    refine broadcastTo_apply x1 broadcasts_S1x64_S8000x64 j (above j) fun a => ?_
    match a with
    | ⟨0, _⟩ => rfl
    | ⟨1, _⟩ => rfl
  show FloatOps.maximumf (F := Ideal) (φ := .f32) (FloatOps.addf (F := Ideal) (φ := .f32) (shapeCast S8000x64 x0 shapeCasts_S8000x64_S8000x64 j) (broadcastTo S8000x64 (shapeCast S1x64 x1 shapeCasts_S1x64_S1x64) broadcasts_S1x64_S8000x64 j)) (FloatOps.ofBits (F := Ideal) .f32 0x00000000#32) = _
  rw [hb, shapeCast_self]

/-- The whole-array function of a table and a bias row: the positive part of table + bias row. -/
abbrev rowwise (X : FVec Ideal S80000x64 .f32) (R : FVec Ideal S1x64 .f32) : FVec Ideal S80000x64 .f32 := fun i =>
  FloatOps.maximumf (F := Ideal) (φ := .f32) (FloatOps.addf (F := Ideal) (φ := .f32) (X i) (R (aboveAll i))) (FloatOps.ofBits (F := Ideal) .f32 0x00000000#32)

/-- The printed block maps, decided over the grid: the table's tile and the result's tile are the same block of rows,
    every other block index is 0, and the row block stays below 10. -/
theorem tile_indices : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some tile's. -/
theorem tile_onto : ∀ q0 : Fin 10, ∃ t : Fin cfg1.N, win1_2.index t = ![q0.val, 0] :=
  (by decide +kernel : ∀ q0 : Fin 10, ∃ t : Fin grid1.N, win1_2.index t = ![q0.val, 0])

/-- Tile t of the whole-array function is the body's value on tile t's rows of the table and the bias row. -/
theorem tile_eq (X : FVec Ideal S80000x64 .f32) (R : FVec Ideal S1x64 .f32) (t : Fin cfg1.N) (j : S8000x64.Idx) :
    k1_pay1 (F := Ideal) (fun y => X (((cfg1.win 0).blk t).view.emb y)) (fun y => R (((cfg1.win 1).blk t).view.emb y)) j
      = rowwise X R (((cfg1.win 2).blk t).view.emb j) := by
  obtain ⟨e0, e1, e2, e3, e4, e5⟩ := tile_indices t
  refine (tile_value _ _ j).trans ?_
  show FloatOps.maximumf (F := Ideal) (φ := .f32) (FloatOps.addf (F := Ideal) (φ := .f32) (X (((cfg1.win 0).blk t).view.emb j)) (R (((cfg1.win 1).blk t).view.emb (above j)))) (FloatOps.ofBits (F := Ideal) .f32 0x00000000#32)
    = FloatOps.maximumf (F := Ideal) (φ := .f32) (FloatOps.addf (F := Ideal) (φ := .f32) (X (((cfg1.win 2).blk t).view.emb j)) (R (aboveAll (((cfg1.win 2).blk t).view.emb j)))) (FloatOps.ofBits (F := Ideal) .f32 0x00000000#32)
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (above j) = aboveAll (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

variable (V : (c : Dev nD) → (b : Ref sig .tc) → Buf (Elt Ideal) ((c : Thread nD τ).loc b))

/-- The whole-array function of the two arrays the region is entered with. -/
abbrev whole (c : Dev nD) : FVec Ideal S80000x64 .f32 := rowwise (V c main_v43) (V c main_v44)

/-- What tile t writes back is the whole-array function read through tile t's rows. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S8000x64) hz, View.ld_unit_zero (S := S1x64) hz]
  funext j
  exact tile_eq (V c main_v43) (V c main_v44) t j

/-- An index of the result lies in tile t's block iff each coordinate is in the block's range on its axis. -/
theorem mem_tile (t : Fin cfg1.N) (i : S80000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v45).slice (win1_2.rect t)).set ↔ _
  rw [View.set_slice_whole, Rect.mem_set_unit]
  exact Iff.rfl

/-- Every index of the result is in the block of the tile that holds its row: tile (row / 8000). -/
theorem tiles_cover (i : S80000x64.Idx) :
    ∃ t : Fin cfg1.N, (cfg1.win 2).flush t = true ∧ i ∈ ((cfg1.win 2).blk t).view.set := by
  have hi0 : (i 0).val < 80000 := (i 0).isLt
  have hi1 : (i 1).val < 64 := (i 1).isLt
  obtain ⟨t, ht⟩ := tile_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- After the last tile the result array is the whole-array function of the arrays the region was entered with. -/
theorem final (c : Dev nD) : (dat1 V c).arrAt 2 cfg1.N = whole V c :=
  (dat1 V c).arrAt_eq_of_cover 2 (whole V c) (fun t _ => flushed_eq V c t) (tiles_cover)

/-- The same with the two entry arrays named. -/
theorem final_of (c : Dev nD) (a : FVec Ideal S80000x64 .f32) (r : FVec Ideal S1x64 .f32)
    (ha : V c main_v43 = a) (hr : V c main_v44 = r) : (dat1 V c).arrAt 2 cfg1.N = rowwise a r := by
  subst ha hr
  exact final V c

end Cert.KernelIdeal.FirstEpilogue

end
-- ==== Proof.SecondProduct.lean ====
/-
  The second dense product, tile by tile, is the whole product.

  The pipeline walks the 80,000 rows in 10 tiles of 8,000. At tile t the body loads rows 8000·t … 8000·t + 7999 of
  the left table and the whole 64 × 32 weight matrix, multiplies them into a zero accumulator, and stores the 8000 × 32
  product, which is written back to the same rows of the result. At the exact values a product accumulated into
  zero at (r, q) is ∑ₖ left(r, k) · weights(k, q) — the sum the reference's whole 80,000-row product has at the row
  8000·t + r — and the 10 tiles cover every row, so after the last tile the result array is the whole product of
  the arrays the region was entered with.
-/
import proofs.«103595_j4363686773056_1_alg».proof.Proof.Gen.KernelIdeal.Frame
import proofs.«103595_j4363686773056_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)

/-- The all-zero offset of a whole-buffer access. -/
theorem hz : (![0, 0] : Fin 2 → Nat) = fun _ => 0 := funext fun a => by fin_cases a <;> rfl

/-- Row r, column k of a tile of the left table. -/
abbrev lrow (j : S8000x32.Idx) (k : Fin 64) : S8000x64.Idx := fun a => match a with
  | ⟨0, _⟩ => ⟨(j 0).val, (j 0).isLt⟩
  | ⟨1, _⟩ => ⟨k.val, k.isLt⟩
/-- Row k, column q of the weights. -/
abbrev rcol (j : S8000x32.Idx) (k : Fin 64) : S64x32.Idx := fun a => match a with
  | ⟨0, _⟩ => ⟨k.val, k.isLt⟩
  | ⟨1, _⟩ => ⟨(j 1).val, (j 1).isLt⟩

theorem lhs_0 (i : S8000x32.Idx) (q : dot_S8000x64_S64x32_S8000x32_1_0_0_1_n_n.contr.Idx) : (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem lhs_1 (i : S8000x32.Idx) (q : dot_S8000x64_S64x32_S8000x32_1_0_0_1_n_n.contr.Idx) : (dot_S8000x64_S64x32_S8000x32_1_0_0_1_n_n.lhsIdx i q 1).val = (q ⟨0, by decide⟩).val :=
  dot_S8000x64_S64x32_S8000x32_1_0_0_1_n_n.lhsIdx_val_of_single rfl i q
theorem rhs_0 (i : S8000x32.Idx) (q : dot_S8000x64_S64x32_S8000x32_1_0_0_1_n_n.contr.Idx) : (dot_S8000x64_S64x32_S8000x32_1_0_0_1_n_n.rhsIdx i q 0).val = (q ⟨0, by decide⟩).val :=
  dot_S8000x64_S64x32_S8000x32_1_0_0_1_n_n.rhsIdx_val_of_single rfl i q
theorem rhs_1 (i : S8000x32.Idx) (q : dot_S8000x64_S64x32_S8000x32_1_0_0_1_n_n.contr.Idx) : (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- One tile's stored value at (r, q): ∑ₖ left(r, k) · weights(k, q). The change of format on the way into the
    product is the identity at the exact values, and the accumulator it starts from is zero. -/
theorem tile_product (x0 : Vec Ideal S8000x64 .f32) (x1 : Vec Ideal S64x32 .f32) (j : S8000x32.Idx) :
    k2_pay1 (F := Ideal) x0 x1 j = ∑ k : Fin 64, x0 (lrow j k) * x1 (rcol j k) := by
  unfold k2_pay1
  simp only [matmul, shapeCast_self]
  rw [Ideal.matmul_constant_zero_apply, ← Equiv.sum_comp (ValueIdx.contrEquiv1 dot_S8000x64_S64x32_S8000x32_1_0_0_1_n_n 64 rfl rfl).symm]
  refine Finset.sum_congr rfl fun k _ => ?_
  have hk := ValueIdx.contrEquiv1_symm_val dot_S8000x64_S64x32_S8000x32_1_0_0_1_n_n 64 rfl rfl k
  have el : dot_S8000x64_S64x32_S8000x32_1_0_0_1_n_n.lhsIdx j ((ValueIdx.contrEquiv1 dot_S8000x64_S64x32_S8000x32_1_0_0_1_n_n 64 rfl rfl).symm k) = lrow j k := funext fun a => Fin.ext (by
    match a with
    | ⟨0, _⟩ => exact lhs_0 _ _
    | ⟨1, _⟩ => exact (lhs_1 _ _).trans hk)
  have er : dot_S8000x64_S64x32_S8000x32_1_0_0_1_n_n.rhsIdx j ((ValueIdx.contrEquiv1 dot_S8000x64_S64x32_S8000x32_1_0_0_1_n_n 64 rfl rfl).symm k) = rcol j k := funext fun a => Fin.ext (by
    match a with
    | ⟨0, _⟩ => exact (rhs_0 _ _).trans hk
    | ⟨1, _⟩ => exact rhs_1 _ _)
  rw [el, er]
  rfl

/-- The printed block maps, decided over the grid: the left table's tile and the result's tile are the same block of
    rows, every other block index is 0, and the row block stays below 10. -/
theorem tile_indices : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some tile's. -/
theorem tile_onto : ∀ q0 : Fin 10, ∃ t : Fin cfg2.N, win2_2.index t = ![q0.val, 0] :=
  (by decide +kernel : ∀ q0 : Fin 10, ∃ t : Fin grid2.N, win2_2.index t = ![q0.val, 0])

/-- Tile t of the product of two arrays is the product of tile t's rows of the left array with the whole right
    array: entry (r, q) of the tile is the whole product's entry (8000·t + r, q), sum by sum and term by term. -/
theorem tile_eq (X : FVec Ideal S80000x64 .f32) (Y : FVec Ideal S64x32 .f32) (t : Fin cfg2.N) (j : S8000x32.Idx) :
    k2_pay1 (F := Ideal) (fun y => X (((cfg2.win 0).blk t).view.emb y)) (fun y => Y (((cfg2.win 1).blk t).view.emb y)) j
      = Cert.Layers.dense32 (F := Ideal) X Y (((cfg2.win 2).blk t).view.emb j) := by
  obtain ⟨e0, e1, e2, e3, e4, e5⟩ := tile_indices t
  refine (tile_product _ _ j).trans ?_
  refine Eq.trans ?_ (Cert.Layers.dense32_apply X Y (((cfg2.win 2).blk t).view.emb j)).symm
  refine Finset.sum_congr rfl fun k _ => ?_
  show X (((cfg2.win 0).blk t).view.emb (lrow j k)) * Y (((cfg2.win 1).blk t).view.emb (rcol j k))
    = X (Cert.ReferenceIdeal.ReadP.lidx_main_v74 (((cfg2.win 2).blk t).view.emb j) k) * Y (Cert.ReferenceIdeal.ReadP.ridx_main_v74 (((cfg2.win 2).blk t).view.emb j) k)
  have h0 : ((cfg2.win 0).blk t).view.emb (lrow j k) = Cert.ReferenceIdeal.ReadP.lidx_main_v74 (((cfg2.win 2).blk t).view.emb j) k := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * k.val = k.val; omega
  have h1 : ((cfg2.win 1).blk t).view.emb (rcol j k) = Cert.ReferenceIdeal.ReadP.ridx_main_v74 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [h0, h1]

variable (V : (c : Dev nD) → (b : Ref sig .tc) → Buf (Elt Ideal) ((c : Thread nD τ).loc b))

/-- The whole product of the two arrays the region is entered with. -/
abbrev whole (c : Dev nD) : FVec Ideal S80000x32 .f32 :=
  Cert.Layers.dense32 (F := Ideal) (V c main_v45) (V c main_arg4)

/-- What tile t writes back is the whole product read through tile t's rows. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S8000x64) hz, View.ld_unit_zero (S := S64x32) hz]
  funext j
  exact tile_eq (V c main_v45) (V c main_arg4) t j

/-- An index of the result lies in tile t's block iff each coordinate is in the block's range on its axis. -/
theorem mem_tile (t : Fin cfg2.N) (i : S80000x32.Idx) :
    i ∈ ((cfg2.win 2).blk t).view.set ↔ ∀ a : Fin 2, win2_2.index t a * S8000x32.size a ≤ (i a).val ∧ (i a).val < win2_2.index t a * S8000x32.size a + S8000x32.size a := by
  show i ∈ ((View.whole main_v46).slice (win2_2.rect t)).set ↔ _
  rw [View.set_slice_whole, Rect.mem_set_unit]
  exact Iff.rfl

/-- Every index of the result is in the block of the tile that holds its row: tile (row / 8000). -/
theorem tiles_cover (i : S80000x32.Idx) :
    ∃ t : Fin cfg2.N, (cfg2.win 2).flush t = true ∧ i ∈ ((cfg2.win 2).blk t).view.set := by
  have hi0 : (i 0).val < 80000 := (i 0).isLt
  have hi1 : (i 1).val < 32 := (i 1).isLt
  obtain ⟨t, ht⟩ := tile_onto ⟨(i 0).val / 8000, by omega⟩
  have q0 : win2_2.index t (0 : Fin 2) = (i 0).val / 8000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 32 ≤ (i 1).val ∧ (i 1).val < win2_2.index t (1 : Fin 2) * 32 + 32; omega

/-- After the last tile the result array is the whole product of the arrays the region was entered with. -/
theorem final (c : Dev nD) : (dat2 V c).arrAt 2 cfg2.N = whole V c :=
  (dat2 V c).arrAt_eq_of_cover 2 (whole V c) (fun t _ => flushed_eq V c t) (tiles_cover)

/-- The same with the two entry arrays named. -/
theorem final_of (c : Dev nD) (x : FVec Ideal S80000x64 .f32) (w : FVec Ideal S64x32 .f32)
    (hx : V c main_v45 = x) (hw : V c main_arg4 = w) : (dat2 V c).arrAt 2 cfg2.N = Cert.Layers.dense32 (F := Ideal) x w := by
  subst hx hw
  exact final V c

end Cert.KernelIdeal.SecondProduct

end
-- ==== Proof.SecondEpilogue.lean ====
/-
  The output layer's bias, tile by tile, is one whole-array function.

  The pipeline walks the 80,000 rows in 10 tiles of 8,000. At tile t the body loads rows 8000·t … 8000·t + 7999 of
  the table and the one bias row, adds the bias entry of column q to every entry of column q, and stores the tile, which is written back to the same rows of the result. Entry (r, q) of a tile
  depends on entry (r, q) of the table's tile and entry (0, q) of the bias row only, so the tile is the whole-array
  function below read through the tile's rows, and the 10 tiles cover every row.
-/
import proofs.«103595_j4363686773056_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.SecondEpilogue

open Cert.KernelIdeal Cert.KernelIdeal.Gen
open Idealize.ShloMosaic Idealize.ShloMosaic.TcCoe Idealize.SL.Sem
open Idealize.ShloMosaic.Pipeline (Dat)

/-- The all-zero offset of a whole-buffer access. -/
theorem hz : (![0, 0] : Fin 2 → Nat) = fun _ => 0 := funext fun a => by fin_cases a <;> rfl

/-- The bias row's entry above entry (r, q) of a tile: (0, q). -/
abbrev above (j : S8000x32.Idx) : S1x32.Idx := fun a => match a with
  | ⟨0, _⟩ => ⟨0, Nat.one_pos⟩
  | ⟨1, _⟩ => ⟨(j 1).val, (j 1).isLt⟩
/-- The bias row's entry above entry (i, q) of the whole table: (0, q). -/
abbrev aboveAll (i : S80000x32.Idx) : S1x32.Idx := fun a => match a with
  | ⟨0, _⟩ => ⟨0, Nat.one_pos⟩
  | ⟨1, _⟩ => ⟨(i 1).val, (i 1).isLt⟩

/-- One tile's stored value at (r, q): table(r, q) + bias(0, q). The casts to the same shape are the
    identity and the broadcast of the one row down the tile reads the row at column q. -/
theorem tile_value (x0 : FVec Ideal S8000x32 .f32) (x1 : FVec Ideal S1x32 .f32) (j : S8000x32.Idx) :
    k3_pay1 (F := Ideal) x0 x1 j = FloatOps.addf (F := Ideal) (φ := .f32) (x0 j) (x1 (above j)) := by
  unfold k3_pay1
  have hb : broadcastTo S8000x32 (shapeCast S1x32 x1 shapeCasts_S1x32_S1x32) broadcasts_S1x32_S8000x32 j = x1 (above j) := by
    rw [shapeCast_self]
    refine broadcastTo_apply x1 broadcasts_S1x32_S8000x32 j (above j) fun a => ?_
    match a with
    | ⟨0, _⟩ => rfl
    | ⟨1, _⟩ => rfl
  show FloatOps.addf (F := Ideal) (φ := .f32) (shapeCast S8000x32 x0 shapeCasts_S8000x32_S8000x32 j) (broadcastTo S8000x32 (shapeCast S1x32 x1 shapeCasts_S1x32_S1x32) broadcasts_S1x32_S8000x32 j) = _
  rw [hb, shapeCast_self]

/-- The whole-array function of a table and a bias row: table + bias row. -/
abbrev rowwise (X : FVec Ideal S80000x32 .f32) (R : FVec Ideal S1x32 .f32) : FVec Ideal S80000x32 .f32 := fun i =>
  FloatOps.addf (F := Ideal) (φ := .f32) (X i) (R (aboveAll i))

/-- The printed block maps, decided over the grid: the table's tile and the result's tile are the same block of rows,
    every other block index is 0, and the row block stays below 10. -/
theorem tile_indices : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows is some tile's. -/
theorem tile_onto : ∀ q0 : Fin 10, ∃ t : Fin cfg3.N, win3_2.index t = ![q0.val, 0] :=
  (by decide +kernel : ∀ q0 : Fin 10, ∃ t : Fin grid3.N, win3_2.index t = ![q0.val, 0])

/-- Tile t of the whole-array function is the body's value on tile t's rows of the table and the bias row. -/
theorem tile_eq (X : FVec Ideal S80000x32 .f32) (R : FVec Ideal S1x32 .f32) (t : Fin cfg3.N) (j : S8000x32.Idx) :
    k3_pay1 (F := Ideal) (fun y => X (((cfg3.win 0).blk t).view.emb y)) (fun y => R (((cfg3.win 1).blk t).view.emb y)) j
      = rowwise X R (((cfg3.win 2).blk t).view.emb j) := by
  obtain ⟨e0, e1, e2, e3, e4, e5⟩ := tile_indices t
  refine (tile_value _ _ j).trans ?_
  show FloatOps.addf (F := Ideal) (φ := .f32) (X (((cfg3.win 0).blk t).view.emb j)) (R (((cfg3.win 1).blk t).view.emb (above j)))
    = FloatOps.addf (F := Ideal) (φ := .f32) (X (((cfg3.win 2).blk t).view.emb j)) (R (aboveAll (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (above j) = aboveAll (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

variable (V : (c : Dev nD) → (b : Ref sig .tc) → Buf (Elt Ideal) ((c : Thread nD τ).loc b))

/-- The whole-array function of the two arrays the region is entered with. -/
abbrev whole (c : Dev nD) : FVec Ideal S80000x32 .f32 := rowwise (V c main_v59) (V c main_v60)

/-- What tile t writes back is the whole-array function read through tile t's rows. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero hz]
  simp only [View.ld_unit_zero (S := S8000x32) hz, View.ld_unit_zero (S := S1x32) hz]
  funext j
  exact tile_eq (V c main_v59) (V c main_v60) t j

/-- An index of the result lies in tile t's block iff each coordinate is in the block's range on its axis. -/
theorem mem_tile (t : Fin cfg3.N) (i : S80000x32.Idx) :
    i ∈ ((cfg3.win 2).blk t).view.set ↔ ∀ a : Fin 2, win3_2.index t a * S8000x32.size a ≤ (i a).val ∧ (i a).val < win3_2.index t a * S8000x32.size a + S8000x32.size a := by
  show i ∈ ((View.whole main_v61).slice (win3_2.rect t)).set ↔ _
  rw [View.set_slice_whole, Rect.mem_set_unit]
  exact Iff.rfl

/-- Every index of the result is in the block of the tile that holds its row: tile (row / 8000). -/
theorem tiles_cover (i : S80000x32.Idx) :
    ∃ t : Fin cfg3.N, (cfg3.win 2).flush t = true ∧ i ∈ ((cfg3.win 2).blk t).view.set := by
  have hi0 : (i 0).val < 80000 := (i 0).isLt
  have hi1 : (i 1).val < 32 := (i 1).isLt
  obtain ⟨t, ht⟩ := tile_onto ⟨(i 0).val / 8000, by omega⟩
  have q0 : win3_2.index t (0 : Fin 2) = (i 0).val / 8000 := congrFun ht 0
  have q1 : win3_2.index t (1 : Fin 2) = 0 := congrFun ht 1
  refine ⟨t, flush3_2 t, ?_⟩
  rw [mem_tile]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 32 ≤ (i 1).val ∧ (i 1).val < win3_2.index t (1 : Fin 2) * 32 + 32; omega

/-- After the last tile the result array is the whole-array function of the arrays the region was entered with. -/
theorem final (c : Dev nD) : (dat3 V c).arrAt 2 cfg3.N = whole V c :=
  (dat3 V c).arrAt_eq_of_cover 2 (whole V c) (fun t _ => flushed_eq V c t) (tiles_cover)

/-- The same with the two entry arrays named. -/
theorem final_of (c : Dev nD) (a : FVec Ideal S80000x32 .f32) (r : FVec Ideal S1x32 .f32)
    (ha : V c main_v59 = a) (hr : V c main_v60 = r) : (dat3 V c).arrAt 2 cfg3.N = rowwise a r := by
  subst ha hr
  exact final V c

end Cert.KernelIdeal.SecondEpilogue

end
-- ==== Proof.ResultValue.lean ====
/-
  The idealized kernel program's result is the network of its arguments.

  The buffer contents at the nine segment boundaries are read forwards. At the first region's entry the index lists
  and the normalisation are the reference's stages of the edge list and the arguments are as launched. Each tiled
  region replaces its result array by a whole-array function of its two input arrays and leaves every other buffer;
  each host stretch between them writes a neighbour sum and a bias row and leaves the index lists, the normalisation and
  the remaining arguments. Composing: first product, first neighbour sum, bias and positive part, second product,
  second neighbour sum, bias — the layer functions, in the order the network composes them.
-/
import proofs.«103595_j4363686773056_1_alg».proof.Proof.Gen.KernelIdeal.Frame
import proofs.«103595_j4363686773056_1_alg».proof.Proof.Layers
import proofs.«103595_j4363686773056_1_alg».proof.Proof.HostStretches
import proofs.«103595_j4363686773056_1_alg».proof.Proof.FirstProduct
import proofs.«103595_j4363686773056_1_alg».proof.Proof.FirstEpilogue
import proofs.«103595_j4363686773056_1_alg».proof.Proof.SecondProduct
import proofs.«103595_j4363686773056_1_alg».proof.Proof.SecondEpilogue

set_option maxRecDepth 16384

noncomputable section

namespace Cert.KernelIdeal.ResultValue

open Cert.KernelIdeal Cert.KernelIdeal.Gen
open Idealize.ShloMosaic Idealize.ShloMosaic.TcCoe Idealize.SL.Sem
open Cert.ReferenceIdeal.ReadP (val_main_v5 val_main_v6 val_main_v29 val_main_v30)
open Cert.Layers (neighbourSum64 neighbourSum32 biasRelu dense32 biasRow gcn)

/-- The bias row's entry above (i, q), as the tiled epilogue reads it and as the reference's broadcast reads it: (0, q). -/
theorem above64 (i : S80000x64.Idx) : FirstEpilogue.aboveAll i = Cert.ReferenceIdeal.ReadP.idx_main_v45 i :=
  funext fun a => by
    match a with
    | ⟨0, _⟩ => rfl
    | ⟨1, _⟩ => rfl
theorem above32 (i : S80000x32.Idx) : SecondEpilogue.aboveAll i = Cert.ReferenceIdeal.ReadP.idx_main_v89 i :=
  funext fun a => by
    match a with
    | ⟨0, _⟩ => rfl
    | ⟨1, _⟩ => rfl

variable (m : (ℓ : Loc nD τ sig) → Buf (Elt Ideal) ℓ) (ρ : Dev nD → PrngReg) (c : Dev nD)

/-! ## At the first product's entry -/

theorem entry_sources : W3 m ρ c (Proc.devRef .tc main_v5) = val_main_v5 (F := Ideal) (m ((c : Thread nD τ).loc main_arg1)) :=
  Stretches.opening_sources (W0 m ρ c)
theorem entry_destinations : W3 m ρ c (Proc.devRef .tc main_v6) = val_main_v6 (F := Ideal) (m ((c : Thread nD τ).loc main_arg1)) :=
  Stretches.opening_destinations (W0 m ρ c)
theorem entry_norm : W3 m ρ c (Proc.devRef .tc main_v29) = val_main_v29 (F := Ideal) (m ((c : Thread nD τ).loc main_arg1)) :=
  Stretches.opening_norm (W0 m ρ c)
theorem entry_arg0 : W3 m ρ c (Proc.devRef .tc main_arg0) = m ((c : Thread nD τ).loc main_arg0) := Stretches.opening_arg0 (W0 m ρ c)
theorem entry_arg2 : W3 m ρ c (Proc.devRef .tc main_arg2) = m ((c : Thread nD τ).loc main_arg2) := Stretches.opening_arg2 (W0 m ρ c)
theorem entry_arg3 : W3 m ρ c (Proc.devRef .tc main_arg3) = m ((c : Thread nD τ).loc main_arg3) := Stretches.opening_arg3 (W0 m ρ c)
theorem entry_arg4 : W3 m ρ c (Proc.devRef .tc main_arg4) = m ((c : Thread nD τ).loc main_arg4) := Stretches.opening_arg4 (W0 m ρ c)
theorem entry_arg5 : W3 m ρ c (Proc.devRef .tc main_arg5) = m ((c : Thread nD τ).loc main_arg5) := Stretches.opening_arg5 (W0 m ρ c)

/-! ## After the first product -/

/-- The first product's array: the whole product of the features and the first weights. -/
theorem product1 : W4 m ρ c (Proc.devRef .tc main_v30)
    = val_main_v30 (F := Ideal) (m ((c : Thread nD τ).loc main_arg0)) (m ((c : Thread nD τ).loc main_arg2)) :=
  (W4_arr m ρ c 2).trans (FirstProduct.final_of (V3 m ρ) c _ _ (entry_arg0 m ρ c) (entry_arg2 m ρ c))
theorem product1_sources : W4 m ρ c (Proc.devRef .tc main_v5) = val_main_v5 (F := Ideal) (m ((c : Thread nD τ).loc main_arg1)) :=
  (W4_of_ne m ρ c main_v5 (by decide)).trans (entry_sources m ρ c)
theorem product1_destinations : W4 m ρ c (Proc.devRef .tc main_v6) = val_main_v6 (F := Ideal) (m ((c : Thread nD τ).loc main_arg1)) :=
  (W4_of_ne m ρ c main_v6 (by decide)).trans (entry_destinations m ρ c)
theorem product1_norm : W4 m ρ c (Proc.devRef .tc main_v29) = val_main_v29 (F := Ideal) (m ((c : Thread nD τ).loc main_arg1)) :=
  (W4_of_ne m ρ c main_v29 (by decide)).trans (entry_norm m ρ c)
theorem product1_arg3 : W4 m ρ c (Proc.devRef .tc main_arg3) = m ((c : Thread nD τ).loc main_arg3) :=
  (W4_of_ne m ρ c main_arg3 (by decide)).trans (entry_arg3 m ρ c)
theorem product1_arg4 : W4 m ρ c (Proc.devRef .tc main_arg4) = m ((c : Thread nD τ).loc main_arg4) :=
  (W4_of_ne m ρ c main_arg4 (by decide)).trans (entry_arg4 m ρ c)
theorem product1_arg5 : W4 m ρ c (Proc.devRef .tc main_arg5) = m ((c : Thread nD τ).loc main_arg5) :=
  (W4_of_ne m ρ c main_arg5 (by decide)).trans (entry_arg5 m ρ c)

/-! ## After the first neighbour sum -/

/-- The hidden layer before its epilogue: the neighbour sum of the first product. -/
abbrev hidden0 : Layers.Hidden Ideal :=
  neighbourSum64 (val_main_v30 (F := Ideal) (m ((c : Thread nD τ).loc main_arg0)) (m ((c : Thread nD τ).loc main_arg2)))
    (m ((c : Thread nD τ).loc main_arg1))

theorem sum1 : W5 m ρ c (Proc.devRef .tc main_v43) = hidden0 m c :=
  (Stretches.first_sum (W4 m ρ c) (m ((c : Thread nD τ).loc main_arg1)) (product1_sources m ρ c) (product1_destinations m ρ c)
    (product1_norm m ρ c)).trans
    (congrArg (fun h => neighbourSum64 (F := Ideal) h (m ((c : Thread nD τ).loc main_arg1))) (product1 m ρ c))
theorem sum1_bias : W5 m ρ c (Proc.devRef .tc main_v44)
    = shapeCast S1x64 (m ((c : Thread nD τ).loc main_arg3)) shapeCasts_S64_S1x64 :=
  (Stretches.first_bias_row (W4 m ρ c)).trans
    (congrArg (fun b => shapeCast S1x64 b shapeCasts_S64_S1x64) (product1_arg3 m ρ c))
theorem sum1_sources : W5 m ρ c (Proc.devRef .tc main_v5) = val_main_v5 (F := Ideal) (m ((c : Thread nD τ).loc main_arg1)) :=
  (Stretches.first_keeps_v5 (W4 m ρ c)).trans (product1_sources m ρ c)
theorem sum1_destinations : W5 m ρ c (Proc.devRef .tc main_v6) = val_main_v6 (F := Ideal) (m ((c : Thread nD τ).loc main_arg1)) :=
  (Stretches.first_keeps_v6 (W4 m ρ c)).trans (product1_destinations m ρ c)
theorem sum1_norm : W5 m ρ c (Proc.devRef .tc main_v29) = val_main_v29 (F := Ideal) (m ((c : Thread nD τ).loc main_arg1)) :=
  (Stretches.first_keeps_v29 (W4 m ρ c)).trans (product1_norm m ρ c)
theorem sum1_arg4 : W5 m ρ c (Proc.devRef .tc main_arg4) = m ((c : Thread nD τ).loc main_arg4) :=
  (Stretches.first_keeps_arg4 (W4 m ρ c)).trans (product1_arg4 m ρ c)
theorem sum1_arg5 : W5 m ρ c (Proc.devRef .tc main_arg5) = m ((c : Thread nD τ).loc main_arg5) :=
  (Stretches.first_keeps_arg5 (W4 m ρ c)).trans (product1_arg5 m ρ c)

/-! ## After the first epilogue and the second product -/

/-- The hidden layer: bias and positive part of the neighbour sum. -/
abbrev hidden : Layers.Hidden Ideal := biasRelu (hidden0 m c) (m ((c : Thread nD τ).loc main_arg3))

theorem epilogue1 : W6 m ρ c (Proc.devRef .tc main_v45) = hidden m c :=
  (W6_arr m ρ c 2).trans ((FirstEpilogue.final_of (V5 m ρ) c _ _ (sum1 m ρ c) (sum1_bias m ρ c)).trans
    (Layers.biasRelu_of_row (hidden0 m c) (m ((c : Thread nD τ).loc main_arg3)) shapeCasts_S64_S1x64 FirstEpilogue.aboveAll above64))
theorem epilogue1_arg4 : W6 m ρ c (Proc.devRef .tc main_arg4) = m ((c : Thread nD τ).loc main_arg4) :=
  (W6_of_ne m ρ c main_arg4 (by decide)).trans (sum1_arg4 m ρ c)

theorem product2 : W7 m ρ c (Proc.devRef .tc main_v46) = dense32 (hidden m c) (m ((c : Thread nD τ).loc main_arg4)) :=
  (W7_arr m ρ c 2).trans (SecondProduct.final_of (V6 m ρ) c _ _ (epilogue1 m ρ c) (epilogue1_arg4 m ρ c))
theorem product2_sources : W7 m ρ c (Proc.devRef .tc main_v5) = val_main_v5 (F := Ideal) (m ((c : Thread nD τ).loc main_arg1)) :=
  (W7_of_ne m ρ c main_v5 (by decide)).trans ((W6_of_ne m ρ c main_v5 (by decide)).trans (sum1_sources m ρ c))
theorem product2_destinations : W7 m ρ c (Proc.devRef .tc main_v6) = val_main_v6 (F := Ideal) (m ((c : Thread nD τ).loc main_arg1)) :=
  (W7_of_ne m ρ c main_v6 (by decide)).trans ((W6_of_ne m ρ c main_v6 (by decide)).trans (sum1_destinations m ρ c))
theorem product2_norm : W7 m ρ c (Proc.devRef .tc main_v29) = val_main_v29 (F := Ideal) (m ((c : Thread nD τ).loc main_arg1)) :=
  (W7_of_ne m ρ c main_v29 (by decide)).trans ((W6_of_ne m ρ c main_v29 (by decide)).trans (sum1_norm m ρ c))
theorem product2_arg5 : W7 m ρ c (Proc.devRef .tc main_arg5) = m ((c : Thread nD τ).loc main_arg5) :=
  (W7_of_ne m ρ c main_arg5 (by decide)).trans ((W6_of_ne m ρ c main_arg5 (by decide)).trans (sum1_arg5 m ρ c))

/-! ## After the second neighbour sum, and the result -/

theorem sum2 : W8 m ρ c (Proc.devRef .tc main_v59)
    = neighbourSum32 (dense32 (hidden m c) (m ((c : Thread nD τ).loc main_arg4))) (m ((c : Thread nD τ).loc main_arg1)) :=
  (Stretches.second_sum (W7 m ρ c) (m ((c : Thread nD τ).loc main_arg1)) (product2_sources m ρ c) (product2_destinations m ρ c)
    (product2_norm m ρ c)).trans
    (congrArg (fun h => neighbourSum32 (F := Ideal) h (m ((c : Thread nD τ).loc main_arg1))) (product2 m ρ c))
theorem sum2_bias : W8 m ρ c (Proc.devRef .tc main_v60)
    = shapeCast S1x32 (m ((c : Thread nD τ).loc main_arg5)) shapeCasts_S32_S1x32 :=
  (Stretches.second_bias_row (W7 m ρ c)).trans
    (congrArg (fun b => shapeCast S1x32 b shapeCasts_S32_S1x32) (product2_arg5 m ρ c))

/-- THE RESULT: the last boundary's contents at the result buffer are the network of the launch contents of the six
    arguments. -/
theorem result : W9 m ρ c (Proc.devRef .tc main_v61)
    = gcn (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W9_arr m ρ c 2).trans ((SecondEpilogue.final_of (V8 m ρ) c _ _ (sum2 m ρ c) (sum2_bias m ρ c)).trans
    (Layers.biasRow_of_row _ (m ((c : Thread nD τ).loc main_arg5)) shapeCasts_S32_S1x32 SecondEpilogue.aboveAll above32))

end Cert.KernelIdeal.ResultValue

end
-- ==== Proof.lean ====
/-
  A two-layer graph convolution on 80,000 nodes and 1,280,000 edges (plus one self loop per node): the kernel program
  against its reference, over the extended reals.

  Both programs compute, twice, act((∑ over messages e into node i of ν(e) · (X · W)(source of e, ·)) + b), with
  ν(e) = dinv(source) · dinv(destination) and dinv the inverse square root of the in-degree. The reference does every step
  as one whole-array host operation. The kernel program does the two dense products and the two bias epilogues as grids
  of 10 row tiles (the products with their operands' format narrowed on the way in, which at the exact values is the
  identity, and accumulated into zero, which adds nothing), and does the index lists, the normalisation and the two
  gather–scale–scatter-add neighbour sums on the host with the same operations as the reference — computing the
  index lists and the normalisation once where the reference computes them once per layer from identical operations.

  So the two results are the same composition of six layer functions (Proof/Layers.lean). On the reference's side that
  is unfolding names (its stages, one operation each). On the kernel's side each tiled region's result array is a
  whole-array function of the arrays it was entered with (Proof/FirstProduct, FirstEpilogue, SecondProduct,
  SecondEpilogue: a tile is that function read through the tile's rows, and the tiles cover every row), each host
  stretch is the reference's stages over the contents it starts from (Proof/HostStretches), and the contents at the
  segment boundaries compose them (Proof/ResultValue) under the run of the whole program (Proof/KernelRun). No step
  moves a factor across a sum or cancels anything, so the inputs' finiteness is never used.

  The three frames: the two kernel programs' are generated whole; the reference's is its run with the result dropped.
  The idealization rewrote no operation, so there is nothing to preserve.
-/
import proofs.«103595_j4363686773056_1_alg».proof.Defs
import proofs.«103595_j4363686773056_1_alg».proof.Proof.Gen.Kernel
import proofs.«103595_j4363686773056_1_alg».proof.Proof.Gen.Kernel.Skeleton
import proofs.«103595_j4363686773056_1_alg».proof.Proof.Gen.Kernel.Launch
import proofs.«103595_j4363686773056_1_alg».proof.Proof.Gen.Kernel.Points
import proofs.«103595_j4363686773056_1_alg».proof.Proof.Gen.Kernel.Frame
import proofs.«103595_j4363686773056_1_alg».proof.Proof.Gen.KernelIdeal
import proofs.«103595_j4363686773056_1_alg».proof.Proof.Gen.KernelIdeal.Skeleton
import proofs.«103595_j4363686773056_1_alg».proof.Proof.Gen.KernelIdeal.Launch
import proofs.«103595_j4363686773056_1_alg».proof.Proof.Gen.KernelIdeal.Points
import proofs.«103595_j4363686773056_1_alg».proof.Proof.Gen.KernelIdeal.Frame
import proofs.«103595_j4363686773056_1_alg».proof.Proof.Gen.ReferenceIdeal
import proofs.«103595_j4363686773056_1_alg».proof.Proof.Gen.Pre_finite_inputs
import proofs.«103595_j4363686773056_1_alg».proof.Proof.ReferenceRunPatched
import proofs.«103595_j4363686773056_1_alg».proof.Proof.ReferenceReadPatched
import proofs.«103595_j4363686773056_1_alg».proof.Proof.Layers
import proofs.«103595_j4363686773056_1_alg».proof.Proof.KernelRun
import proofs.«103595_j4363686773056_1_alg».proof.Proof.ResultValue
import Idealize.ShloMosaic.Adequacy
import Idealize.ShloMosaic.Init

noncomputable section

namespace Cert.Proof

open Idealize.ShloMosaic Idealize.SL.Sem

/-- The kernel program as printed runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The idealized reference runs and leaves its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end with the network of those arguments as their
    result: the kernel program by the boundary contents read forwards, the reference by its stages. -/
theorem algebraic : Cert.algebraic_KernelIdeal_ReferenceIdeal := by
  intro m ρ m' ρ' _ hagree
  refine ⟨fun c => Cert.Layers.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.ResultValue.result m ρ c), (h c).2⟩)
      (Cert.KernelIdeal.RunValue.run_result m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v90_eq, Cert.Layers.reference_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
